-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x128 : Shape := ⟨3, ![8, 16384, 128]⟩
abbrev S128x128 : Shape := ⟨2, ![128, 128]⟩
abbrev S_ : Shape := ⟨0, ![]⟩

class Facts : Prop where
  bcast_S_S8x16384x128 : S_.BroadcastsInDim S8x16384x128 (![] : Fin 0 → Fin S8x16384x128.rank)
  reducesTo_S8x16384x128_S_d0_1_2 : S8x16384x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8x16384x128 .f32) (main_arg1 : FVec F S128x128 .f32) (main_arg2 : FVec F S128x128 .f32) (main_arg3 : FVec F S128x128 .f32) : IVec S_ 1 :=
  let main_v0 : FVec F S8x16384x128 .f32 := Host.absf main_arg0
  let main_cst : FVec F S_ .f32 := constant S_ .f32 0x7F800000#32
  let main_v1 : FVec F S8x16384x128 .f32 := broadcastInDim S8x16384x128 ![] bcast_S_S8x16384x128 main_cst
  let main_v2 : IVec S8x16384x128 1 := cmpf .olt main_v0 main_v1
  let main_c : IVec S_ 1 := constantI S_ 1 1#1
  let main_v3 : IVec S_ 1 := (fun x v => Host.reduce IntOp.andi x v reducesTo_S8x16384x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8x16384x128 : Shape := ⟨3, ![8, 16384, 128]⟩
abbrev S128x128 : Shape := ⟨2, ![128, 128]⟩
abbrev S_ : Shape := ⟨0, ![]⟩
abbrev S128 : Shape := ⟨1, ![128]⟩
abbrev S1x128 : Shape := ⟨2, ![1, 128]⟩
abbrev S1x16384x128 : Shape := ⟨3, ![1, 16384, 128]⟩
abbrev S1x2048x128 : Shape := ⟨3, ![1, 2048, 128]⟩
abbrev S2048x128 : Shape := ⟨2, ![2048, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16384x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S8x16384x128, .f32⟩
  | .local _ .vmem, ⟨0, _⟩ => ⟨S1x16384x128, .f32⟩
  | .local _ .vmem, ⟨1, _⟩ => ⟨S1x16384x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x16384x128, .f32⟩
  | .local _ .vmem, ⟨6, _⟩ => ⟨S1x16384x128, .f32⟩
  | .local _ .vmem, ⟨7, _⟩ => ⟨S1x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2048_i32 : BitVec 32 := 2048#32
  let v14 : BitVec 32 := Scalar.muli arg7 c2048_i32
  v14
def k0_off1 (k0_t1 : Fin k0_t1_loop.trips) : Fin 3 → Nat :=
  let c0_15 : Index := 0#32
  let c0_i32 : BitVec 32 := 0#32
  let c1_i32 : BitVec 32 := 1#32
  let arg7 : BitVec 32 := Scf.iv c0_i32 c1_i32 k0_t1
  let c2048_i32 : BitVec 32 := 2048#32
  let v14 : BitVec 32 := Scalar.muli arg7 c2048_i32
  let v15 : BitVec 32 := v14
  let v16 : Index := Scalar.indexCast v15
  let c0_16 : Index := 0#32
  ![0, v16.toNat, 0]
@[reducible] def k0_t2_loop : Scf.Loop 32 :=
  let c0_i32_11 : BitVec 32 := 0#32
  let c8_i32_12 : BitVec 32 := 8#32
  let v13 : BitVec 32 := Scalar.addi c0_i32_11 c8_i32_12
  let c1_i32_13 : BitVec 32 := 1#32
  ⟨c0_i32_11, v13, c1_i32_13⟩
def k0_mult2 (k0_t2 : Fin k0_t2_loop.trips) : BitVec 32 :=
  let c0_i32_11 : BitVec 32 := 0#32
  let c1_i32_13 : BitVec 32 := 1#32
  let arg7 : BitVec 32 := Scf.iv c0_i32_11 c1_i32_13 k0_t2
  let c2048_i32 : BitVec 32 := 2048#32
  let v14 : BitVec 32 := Scalar.muli arg7 c2048_i32
  v14
def k0_off2 (k0_t2 : Fin k0_t2_loop.trips) : Fin 3 → Nat :=
  let c0_15 : Index := 0#32
  let c0_i32_11 : BitVec 32 := 0#32
  let c1_i32_13 : BitVec 32 := 1#32
  let arg7 : BitVec 32 := Scf.iv c0_i32_11 c1_i32_13 k0_t2
  let c2048_i32 : BitVec 32 := 2048#32
  let v14 : BitVec 32 := Scalar.muli arg7 c2048_i32
  let v15 : BitVec 32 := v14
  let v16 : Index := Scalar.indexCast v15
  let c0_16 : Index := 0#32
  ![0, v16.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S128x128_S128_d0 : S128x128.ReducesTo [0] S128
  h_S_ : 0 < S_.numel
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1x2048x128 : 0 < S1x2048x128.numel
  shapeCasts_S1x2048x128_S2048x128 : S1x2048x128.ShapeCasts S2048x128
  reduces_S2048x128_S128 : S2048x128.Reduces [0] S128
  shapeCasts_S128_S1x128 : S128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S1x128_S2048x128 : S1x128.Broadcasts S2048x128
  shapeCasts_S2048x128_S1x2048x128 : S2048x128.ShapeCasts S1x2048x128
  dot_S1x128_S128x128_S1x128_1_0_0_1_n_n_wf : DotDims.WF S1x128 S128x128 S1x128 [1] [0] [0] [1] [] []
  dot_S2048x128_S128x128_S2048x128_1_0_0_1_n_n_wf : DotDims.WF S2048x128 S128x128 S2048x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x2048x128.size a ≤ S1x16384x128.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S1x2048x128.size a ≤ S1x16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x128.size a ≤ S8x16384x128.size a
  hwx0_0 : ∀ i : grid0.Coords, EltTy.bits .f32 = 32 ∨ (Rect.block (s := S8x16384x128) S1x16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16384x128.size a ≤ S8x16384x128.size a
  hwx0_4 : ∀ i : grid0.Coords, EltTy.bits .f32 = 32 ∨ (Rect.block (s := S8x16384x128) S1x16384x128.size (cc0_transform_4 i) (hinb0_4 i)).WholeWords (EltTy.packing .f32)

variable [Facts₀]

def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16384x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16384x128 : Shape := ⟨3, ![8, 16384, 128]⟩
abbrev S128x128 : Shape := ⟨2, ![128, 128]⟩
abbrev S_ : Shape := ⟨0, ![]⟩
abbrev S8x128 : Shape := ⟨2, ![8, 128]⟩
abbrev S8x1x128 : Shape := ⟨3, ![8, 1, 128]⟩
abbrev S128 : Shape := ⟨1, ![128]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S8x128, .f32⟩
  | .hbm, ⟨6, _⟩ => ⟨S8x1x128, .f32⟩
  | .hbm, ⟨7, _⟩ => ⟨S8x16384x128, .f32⟩
  | .hbm, ⟨8, _⟩ => ⟨S8x1x128, .f32⟩
  | .hbm, ⟨9, _⟩ => ⟨S8x16384x128, .f32⟩
  | .hbm, ⟨10, _⟩ => ⟨S8x16384x128, .f32⟩
  | .hbm, ⟨11, _⟩ => ⟨S_, .f32⟩
  | .hbm, ⟨12, _⟩ => ⟨S128, .f32⟩
  | .hbm, ⟨13, _⟩ => ⟨S1x1x128, .f32⟩
  | .hbm, ⟨14, _⟩ => ⟨S8x16384x128, .f32⟩
  | .hbm, ⟨15, _⟩ => ⟨S8x16384x128, .f32⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S8x16384x128_S8x128_d1 : S8x16384x128.ReducesTo [1] S8x128
  h_S_ : 0 < S_.numel
  bcast_S8x128_S8x1x128_0_2 : S8x128.BroadcastsInDim S8x1x128 (![0, 2] : Fin 2 → Fin S8x1x128.rank)
  bcast_S8x1x128_S8x16384x128_0_1_2 : S8x1x128.BroadcastsInDim S8x16384x128 (![0, 1, 2] : Fin 3 → Fin S8x16384x128.rank)
  reducesTo_S128x128_S128_d0 : S128x128.ReducesTo [0] S128
  bcast_S128_S1x1x128_2 : S128.BroadcastsInDim S1x1x128 (![2] : Fin 1 → Fin S1x1x128.rank)
  bcast_S1x1x128_S8x16384x128_0_1_2 : S1x1x128.BroadcastsInDim S8x16384x128 (![0, 1, 2] : Fin 3 → Fin S8x16384x128.rank)
  dot_S8x16384x128_S128x128_S8x16384x128_2_0_01_1_n_n_wf : DotDims.WF S8x16384x128 S128x128 S8x16384x128 [2] [0] [0, 1] [1] [] []
  dot_S8x1x128_S128x128_S8x1x128_2_0_01_1_n_n_wf : DotDims.WF S8x1x128 S128x128 S8x1x128 [2] [0] [0, 1] [1] [] []

variable [Facts₀]

def dot_S8x16384x128_S128x128_S8x16384x128_2_0_01_1_n_n : DotDims S8x16384x128 S128x128 S8x16384x128 where
  lhsContracting := [2]
  rhsContracting := [0]
  lhsNonContracting := [0, 1]
  rhsNonContracting := [1]
  lhsBatch := []
  rhsBatch := []
  wf := dot_S8x16384x128_S128x128_S8x16384x128_2_0_01_1_n_n_wf
def dot_S8x1x128_S128x128_S8x1x128_2_0_01_1_n_n : DotDims S8x1x128 S128x128 S8x1x128 where
  lhsContracting := [2]
  rhsContracting := [0]
  lhsNonContracting := [0, 1]
  rhsNonContracting := [1]
  lhsBatch := []
  rhsBatch := []
  wf := dot_S8x1x128_S128x128_S8x1x128_2_0_01_1_n_n_wf

class Facts : Prop extends Facts₀ where

variable [Facts]
-- ==== Proof.Pieces.lean ====
/-
  What the kernel body leaves in its output block and in its running row sum, as lists of stores.

  The body's run through its two counted loops is recorded as the list of stores each loop made. This module
  opens that record once. Each trip of the second loop makes ONE store: at rows 2048·k … 2048·k + 2047 of the
  output block, the value `k0_pay3` of the running row sum, β, the bias row, α and the same rows of x. Each trip of
  the first loop makes ONE store through the whole of the running row sum: `k0_pay2` of rows
  2048·k … 2048·k + 2047 of x and of what the running row sum held before. So after k trips of the first loop
  the running row sum holds `rowSum x0 k`, defined here by that recurrence from the cleared value `k0_pay1`, and the
  value the second loop reads is `rowSum x0` after all the trips.
-/
import proofs.«118923_j9560597201465_2_alg».proof.Proof.Gen.KernelIdeal.Frame
import Idealize.ShloMosaic.Lib.Pipeline.Value

set_option maxRecDepth 65536

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole two-axis buffer. -/
theorem zero2 : (![0, 0] : Fin 2 → ℕ) = fun _ => 0 :=
  funext fun a => by match a with | ⟨0, _⟩ => rfl | ⟨1, _⟩ => rfl

/-- A store through the whole of a buffer leaves its payload there, whatever the buffer held. -/
theorem read_write_whole {S : Shape} (M : Memref sig .tc .vmem S .f32) (f : BufTy.Contents (Elt F) M.view.ty)
    {off : Fin S.rank → ℕ} (hz : off = fun _ => 0) (inb : ∀ a, off a + S.size a ≤ S.size a) (w : S.Idx → Elt F .f32) :
    View.read (Elt F) M.view (M.view.writes (Elt F) f [(⟨Rect.unit off S.size inb, w⟩ : View.Piece (Elt F) S .f32)]) = w :=
  (View.read_writes_eq_canon M.view f _ fun y => ⟨_, List.mem_singleton_self _, View.mem_set_unit_zero hz inb y⟩).trans
    (View.canon_unit_zero hz inb w)

/-- A load from a whole staging buffer that holds `X` reads `X` through the load's rectangle. -/
theorem readAt_unread {S : Shape} (M : Memref sig .tc .vmem S .f32) (h : M.IsWhole) (X : S.Idx → Elt F .f32) (r : Rect S) :
    View.readAt (Elt F) M.view r.toLoadRect (h.unread X) = View.ld X r := by
  rw [View.readAt_eq_ld, h.read_unread]

variable (𝒱 : Variants) (bd : Option 𝒱.V)
variable (c : Dev nD) (i : grid0.Coords) (arg1 : Memref sig .tc .vmem S1x16384x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x16384x128 .f32) (harg5 : arg5.IsWhole) (arg6 : Memref sig .tc .vmem S1x128 .f32) (harg6 : arg6.IsWhole)

/-! ## One trip of each loop makes one store -/

/-- Trip `k` of the second loop: one store, at the trip's rows of the output block, of `k0_pay3` of the trip's rows of x. -/
theorem trip2_piece (v5 : Vec F S1x128 .f32) (v6 : Vec F S128x128 .f32) (v8 : Vec F S1x128 .f32) (v11 : Vec F S128x128 .f32)
    (X_arg1 : BufTy.Contents (Elt F) arg1.view.ty) (k : Fin k0_t2_loop.trips) :
    tripL_k0_t2 (F := F) 𝒱 c bd i arg1 harg1 arg2 harg2 arg3 harg3 arg4 harg4 arg5 harg5 arg6 harg6 v5 v6 v8 v11 X_arg1 k
      = [(⟨Rect.unit (s := S1x16384x128) (k0_off2 k) S1x2048x128.size (k0_off2_inb k),
          k0_pay3 v5 v6 v8 v11 (View.readAt (Elt F) arg1.view (Rect.unit (s := S1x16384x128) (k0_off2 k) S1x2048x128.size (k0_off2_inb k)).toLoadRect X_arg1)⟩ :
            View.Piece (Elt F) S1x16384x128 .f32)] := by
  unfold tripL_k0_t2 trip_k0_t2
  rfl

/-- Trip `k` of the first loop: one store, through the whole running row sum, of `k0_pay2` of the trip's rows of x
    and of what the running row sum held. -/
theorem trip1_piece (X_arg1 : BufTy.Contents (Elt F) arg1.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 X_arg1 k f
      = [(⟨Rect.unit (s := S1x128) ![0, 0] S1x128.size inb_S1x128_S1x128_0_0,
          k0_pay2 (View.readAt (Elt F) arg1.view (Rect.unit (s := S1x16384x128) (k0_off1 k) S1x2048x128.size (k0_off1_inb k)).toLoadRect X_arg1)
            (View.readAt (Elt F) arg6.view (Rect.unit (s := S1x128) ![0, 0] S1x128.size inb_S1x128_S1x128_0_0).toLoadRect f)⟩ :
            View.Piece (Elt F) S1x128 .f32)] := by
  unfold tripL_k0_t1 trip_k0_t1
  rfl

/-! ## The running row sum -/

/-- The running row sum after `k` trips of the first loop over the block `x0`. -/
def rowSum (x0 : Vec F S1x16384x128 .f32) : ℕ → Vec F S1x128 .f32
  | 0 => k0_pay1
  | k + 1 =>
    if h : k < k0_t1_loop.trips then
      k0_pay2 (View.ld x0 (Rect.unit (s := S1x16384x128) (k0_off1 ⟨k, h⟩) S1x2048x128.size (k0_off1_inb ⟨k, h⟩))) (rowSum x0 k)
    else rowSum x0 k

theorem rowSum_succ (x0 : Vec F S1x16384x128 .f32) (k : Fin k0_t1_loop.trips) :
    rowSum x0 (k.val + 1) = k0_pay2 (View.ld x0 (Rect.unit (s := S1x16384x128) (k0_off1 k) S1x2048x128.size (k0_off1_inb k))) (rowSum x0 k.val) := by
  rw [rowSum]; exact dif_pos k.isLt

/-- After `k` trips of the first loop, started on the cleared buffer, the running row sum's buffer holds `rowSum x0 k`. -/
theorem scratch_read (x0 : Vec F S1x16384x128 .f32) (f0 : BufTy.Contents (Elt F) arg6.view.ty) :
    ∀ k : ℕ, k ≤ k0_t1_loop.trips →
      View.read (Elt F) arg6.view (arg6.view.writes (Elt F) (arg6.view.writes (Elt F) f0 kernelRun0_A.sl.HS0_1)
        (pb_k0_t1 (F := F) 𝒱 c bd i arg1 harg1 arg2 harg2 arg3 harg3 arg4 harg4 arg5 harg5 arg6 harg6 (harg1.unread x0) (arg6.view.writes (Elt F) f0 kernelRun0_A.sl.HS0_1) k))
        = rowSum x0 k
  | 0, _ => by
    show View.read (Elt F) arg6.view (arg6.view.writes (Elt F) f0 kernelRun0_A.sl.HS0_1) = k0_pay1
    unfold kernelRun0_A.sl.HS0_1
    exact read_write_whole arg6 f0 zero2 inb_S1x128_S1x128_0_0 _
  | k + 1, hk => by
    have hk' : k < k0_t1_loop.trips := hk
    have ih := scratch_read x0 f0 k (Nat.le_of_lt hk')
    have e := pb_k0_t1_succ (F := F) 𝒱 c bd i arg1 harg1 arg2 harg2 arg3 harg3 arg4 harg4 arg5 harg5 arg6 harg6 (harg1.unread x0) (arg6.view.writes (Elt F) f0 kernelRun0_A.sl.HS0_1) ⟨k, hk'⟩
    simp only [Fin.val_mk] at e
    rw [e, trip1_piece, View.writes_append, read_write_whole arg6 _ zero2 inb_S1x128_S1x128_0_0, readAt_unread, View.readAt_eq_ld, ih,
      View.ld_unit_zero zero2]
    exact (rowSum_succ x0 ⟨k, hk'⟩).symm

/-! ## The stores of the second loop, and of the whole body -/

/-- Every store of the first `k` trips of the second loop is some trip's one store. -/
theorem mem_pb2 (v5 : Vec F S1x128 .f32) (v6 : Vec F S128x128 .f32) (v8 : Vec F S1x128 .f32) (v11 : Vec F S128x128 .f32)
    (X_arg1 : BufTy.Contents (Elt F) arg1.view.ty) :
    ∀ k : ℕ, k ≤ k0_t2_loop.trips → ∀ p ∈ pb_k0_t2 (F := F) 𝒱 c bd i arg1 harg1 arg2 harg2 arg3 harg3 arg4 harg4 arg5 harg5 arg6 harg6 v5 v6 v8 v11 X_arg1 k,
      ∃ k' : Fin k0_t2_loop.trips, p = (⟨Rect.unit (s := S1x16384x128) (k0_off2 k') S1x2048x128.size (k0_off2_inb k'),
          k0_pay3 v5 v6 v8 v11 (View.readAt (Elt F) arg1.view (Rect.unit (s := S1x16384x128) (k0_off2 k') S1x2048x128.size (k0_off2_inb k')).toLoadRect X_arg1)⟩ :
            View.Piece (Elt F) S1x16384x128 .f32)
  | 0, _, p, hp => by
    rw [show pb_k0_t2 (F := F) 𝒱 c bd i arg1 harg1 arg2 harg2 arg3 harg3 arg4 harg4 arg5 harg5 arg6 harg6 v5 v6 v8 v11 X_arg1 0 = [] from rfl] at hp
    exact absurd hp List.not_mem_nil
  | k + 1, hk, p, hp => by
    have hk' : k < k0_t2_loop.trips := hk
    have e := pb_k0_t2_succ (F := F) 𝒱 c bd i arg1 harg1 arg2 harg2 arg3 harg3 arg4 harg4 arg5 harg5 arg6 harg6 v5 v6 v8 v11 X_arg1 ⟨k, hk'⟩
    simp only [Fin.val_mk] at e
    rw [e, trip2_piece, List.mem_append, List.mem_singleton] at hp
    rcases hp with rfl | hp
    · exact ⟨⟨k, hk'⟩, rfl⟩
    · exact mem_pb2 v5 v6 v8 v11 X_arg1 k (Nat.le_of_lt hk') p hp

end Cert.KernelIdeal.Pieces

namespace Cert.KernelIdeal.Pieces

open Cert.KernelIdeal Cert.KernelIdeal.Gen Idealize.ShloMosaic Idealize.ShloMosaic.TcCoe Idealize.SL.Sem

variable {F : FTy → Type} [FloatOps F]
variable (c : Dev nD) (i : grid0.Coords) (arg1 : Memref sig .tc .vmem S1x16384x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x16384x128 .f32) (harg5 : arg5.IsWhole) (arg6 : Memref sig .tc .vmem S1x128 .f32) (harg6 : arg6.IsWhole)

/-- The running row sum the second loop reads is the one all the trips of the first loop leave. -/
theorem v5_eq (x0 : Vec F S1x16384x128 .f32) :
    kernelRun0_A.sl.v5 (F := F) c i arg1 harg1 arg2 harg2 arg3 harg3 arg4 harg4 arg5 harg5 arg6 harg6 x0 = rowSum x0 k0_t1_loop.trips := by
  unfold kernelRun0_A.sl.v5
  rw [View.readAt_eq_ld, View.writes_append, View.ld_unit_zero zero2]
  exact scratch_read Variants.none none c i arg1 harg1 arg2 harg2 arg3 harg3 arg4 harg4 arg5 harg5 arg6 harg6 x0 arg6.view.junk k0_t1_loop.trips (Nat.le_refl _)

/-- Every store the body makes into its output block is, for some chunk `k`, the store at the chunk's rows of
    `k0_pay3` of the final running row sum, β's block, the bias row, α's block and the chunk's rows of x. -/
theorem run_pieces_mem (x0 : Vec F S1x16384x128 .f32) (x1 : Vec F S128x128 .f32) (x2 : Vec F S128x128 .f32) (x3 : Vec F S1x128 .f32) :
    ∀ p ∈ (kernelRun0_A (F := F) c i arg1 harg1 arg2 harg2 arg3 harg3 arg4 harg4 arg5 harg5 arg6 harg6 x0 x1 x2 x3).1,
      ∃ k : Fin k0_t2_loop.trips, p = (⟨Rect.unit (s := S1x16384x128) (k0_off2 k) S1x2048x128.size (k0_off2_inb k),
          k0_pay3 (rowSum x0 k0_t1_loop.trips) x2 x3 x1 (View.ld x0 (Rect.unit (s := S1x16384x128) (k0_off2 k) S1x2048x128.size (k0_off2_inb k)))⟩ :
            View.Piece (Elt F) S1x16384x128 .f32) := by
  intro p hp
  have hL : (kernelRun0_A (F := F) c i arg1 harg1 arg2 harg2 arg3 harg3 arg4 harg4 arg5 harg5 arg6 harg6 x0 x1 x2 x3).1
      = pb_k0_t2 (F := F) Variants.none c none i arg1 harg1 arg2 harg2 arg3 harg3 arg4 harg4 arg5 harg5 arg6 harg6 (kernelRun0_A.sl.v5 (F := F) c i arg1 harg1 arg2 harg2 arg3 harg3 arg4 harg4 arg5 harg5 arg6 harg6 x0)
          (View.readAt (Elt F) arg3.view (Rect.unit (s := S128x128) ![0, 0] S128x128.size inb_S128x128_S128x128_0_0).toLoadRect (harg3.unread x2))
          (View.readAt (Elt F) arg4.view (Rect.unit (s := S1x128) ![0, 0] S1x128.size inb_S1x128_S1x128_0_0).toLoadRect (harg4.unread x3))
          (View.readAt (Elt F) arg2.view (Rect.unit (s := S128x128) ![0, 0] S128x128.size inb_S128x128_S128x128_0_0).toLoadRect (harg2.unread x1))
          (harg1.unread x0) k0_t2_loop.trips := by
    unfold kernelRun0_A
    rfl
  rw [hL] at hp
  obtain ⟨k, rfl⟩ := mem_pb2 Variants.none none c i arg1 harg1 arg2 harg2 arg3 harg3 arg4 harg4 arg5 harg5 arg6 harg6 _ _ _ _ _ k0_t2_loop.trips (Nat.le_refl _) p hp
  refine ⟨k, ?_⟩
  rw [readAt_unread, readAt_unread, readAt_unread, readAt_unread, View.ld_unit_zero zero2, View.ld_unit_zero zero2,
    View.ld_unit_zero zero2, v5_eq]

end Cert.KernelIdeal.Pieces

end
-- ==== Proof.Payload.lean ====
/-
  The kernel body's arithmetic, read at an index on the extended reals.

  The body stores three values. The first clears the running row sum: every entry is zero. The second adds to the
  running row sum the column sums of one chunk of 2048 rows. The third is one chunk of the result: at row r and
  output channel o,
      Σ_i chunk(r,i)·α(i,o)  +  ( Σ_i rowsum(i)·β(i,o)  +  biasrow(o) ),
  the roundings to bfloat16 on the way into the product being the identity on the extended reals, and a matrix
  product into a zero accumulator being the plain sum over the contracted channel.
-/
import proofs.«118923_j9560597201465_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The two matrix products as sums over the contracted channel -/

/-- The contracted index of the one-row product, as a channel. -/
abbrev D1 : DotDims S1x128 S128x128 S1x128 := dot_S1x128_S128x128_S1x128_1_0_0_1_n_n
/-- The contracted index of the chunk product, as a channel. -/
abbrev D2 : DotDims S2048x128 S128x128 S2048x128 := dot_S2048x128_S128x128_S2048x128_1_0_0_1_n_n

theorem D1_lhs0 (j : S1x128.Idx) (q : D1.contr.Idx) : (D1.lhsIdx j q 0).val = (j 0).val := by
  unfold DotDims.lhsIdx
  rw [dif_neg (show ¬(0 : Fin S1x128.rank) ∈ D1.lhsBatch by decide), dif_pos (show (0 : Fin S1x128.rank) ∈ D1.lhsNonContracting by decide)]
  rfl
theorem D1_rhs1 (j : S1x128.Idx) (q : D1.contr.Idx) : (D1.rhsIdx j q 1).val = (j 1).val := by
  unfold DotDims.rhsIdx
  rw [dif_neg (show ¬(1 : Fin S128x128.rank) ∈ D1.rhsBatch by decide), dif_pos (show (1 : Fin S128x128.rank) ∈ D1.rhsNonContracting by decide)]
  rfl
theorem D2_lhs0 (j : S2048x128.Idx) (q : D2.contr.Idx) : (D2.lhsIdx j q 0).val = (j 0).val := by
  unfold DotDims.lhsIdx
  rw [dif_neg (show ¬(0 : Fin S2048x128.rank) ∈ D2.lhsBatch by decide), dif_pos (show (0 : Fin S2048x128.rank) ∈ D2.lhsNonContracting by decide)]
  rfl
theorem D2_rhs1 (j : S2048x128.Idx) (q : D2.contr.Idx) : (D2.rhsIdx j q 1).val = (j 1).val := by
  unfold DotDims.rhsIdx
  rw [dif_neg (show ¬(1 : Fin S128x128.rank) ∈ D2.rhsBatch by decide), dif_pos (show (1 : Fin S128x128.rank) ∈ D2.rhsNonContracting by decide)]
  rfl

/-- The one-row product into a zero accumulator: entry (u, o) is Σ_i l(u,i)·w(i,o). -/
theorem matmul_row {φ₁ φ₂ : FTy} (prec : Option ContractPrecision) (l : FVec Ideal S1x128 φ₁) (w : FVec Ideal S128x128 φ₂) (u : Fin 1) (o : Fin 128) :
    FloatOps.matmul D1 prec l w (constant S1x128 .f32 0x00000000#32) (ix2 u o) = ∑ i : Fin 128, l (ix2 u i) * w (ix2 i o) := by
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 u o) ((contrEquiv1 D1 128 rfl rfl).symm k) = ix2 u k := funext fun a => Fin.ext (by
    match a with
    | ⟨0, _⟩ => exact D1_lhs0 _ _
    | ⟨1, _⟩ => exact (D1.lhsIdx_val_of_single rfl _ _).trans hk)
  have er : D1.rhsIdx (ix2 u o) ((contrEquiv1 D1 128 rfl rfl).symm k) = ix2 k o := funext fun a => Fin.ext (by
    match a with
    | ⟨0, _⟩ => exact (D1.rhsIdx_val_of_single rfl _ _).trans hk
    | ⟨1, _⟩ => exact D1_rhs1 _ _)
  rw [el, er]

/-- The chunk product into a zero accumulator: entry (r, o) is Σ_i l(r,i)·w(i,o). -/
theorem matmul_chunk {φ₁ φ₂ : FTy} (prec : Option ContractPrecision) (l : FVec Ideal S2048x128 φ₁) (w : FVec Ideal S128x128 φ₂) (r : Fin 2048) (o : Fin 128) :
    FloatOps.matmul D2 prec l w (constant S2048x128 .f32 0x00000000#32) (ix2 r o) = ∑ i : Fin 128, l (ix2 r i) * w (ix2 i o) := by
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 r o) ((contrEquiv1 D2 128 rfl rfl).symm k) = ix2 r k := funext fun a => Fin.ext (by
    match a with
    | ⟨0, _⟩ => exact D2_lhs0 _ _
    | ⟨1, _⟩ => exact (D2.lhsIdx_val_of_single rfl _ _).trans hk)
  have er : D2.rhsIdx (ix2 r o) ((contrEquiv1 D2 128 rfl rfl).symm k) = ix2 k o := funext fun a => Fin.ext (by
    match a with
    | ⟨0, _⟩ => exact (D2.rhsIdx_val_of_single rfl _ _).trans hk
    | ⟨1, _⟩ => exact D2_rhs1 _ _)
  rw [el, er]

/-! ## The three stored values -/

/-- The value that clears the running row sum is zero everywhere. -/
theorem pay1_apply (j : S1x128.Idx) : k0_pay1 (F := Ideal) j = 0 := by
  unfold k0_pay1
  rw [shapeCast_self]
  exact Ideal.ofBits_zero_f32

/-- One chunk's update of the running row sum: the old value plus the chunk's column sum. -/
theorem pay2_apply (v17 : Vec Ideal S1x2048x128 .f32) (v19 : Vec Ideal S1x128 .f32) (u : Fin 1) (i : Fin 128) :
    k0_pay2 (F := Ideal) v17 v19 (ix2 u i) = v19 (ix2 u i) + ∑ r : Fin 2048, v17 (ix3 (0 : Fin 1) r i) := by
  unfold k0_pay2
  dsimp only
  rw [shapeCast_self]
  refine congrArg (v19 (ix2 u i) + ·) ?_
  refine (shapeCast_a_1a_apply _ _ u i).trans ?_
  refine (Ideal.multiReduction_add_single _ 0x00000000#32 reduces_S2048x128_S128 (.inl rfl) rfl (ix1 i)).trans ?_
  refine Finset.sum_congr rfl fun r _ => ?_
  have e : reduces_S2048x128_S128.lift (ix1 i) r = ix2 r i :=
    funext fun a => Fin.ext (by match a with | ⟨0, _⟩ => rfl | ⟨1, _⟩ => rfl)
  rw [e]
  exact shapeCast_1ab_ab_apply _ _ r i

/-- One chunk of the result. -/
theorem pay3_apply (v5 : Vec Ideal S1x128 .f32) (v6 : Vec Ideal S128x128 .f32) (v8 : Vec Ideal S1x128 .f32) (v11 : Vec Ideal S128x128 .f32)
    (v17 : Vec Ideal S1x2048x128 .f32) (u : Fin 1) (r : Fin 2048) (o : Fin 128) :
    k0_pay3 (F := Ideal) v5 v6 v8 v11 v17 (ix3 u r o)
      = (∑ i : Fin 128, v17 (ix3 (0 : Fin 1) r i) * v11 (ix2 i o))
        + ((∑ i : Fin 128, v5 (ix2 (0 : Fin 1) i) * v6 (ix2 i o)) + v8 (ix2 (0 : Fin 1) o)) := by
  unfold k0_pay3
  refine (shapeCast_ab_1ab_apply _ _ u r o).trans ?_
  refine congrArg₂ (· + ·) ?_ ?_
  · refine (matmul_chunk none _ _ r o).trans ?_
    refine Finset.sum_congr rfl fun i _ => ?_
    refine congrArg (· * v11 (ix2 i o)) ?_
    exact shapeCast_1ab_ab_apply _ _ r i
  · refine (broadcastTo_1b_ab_apply _ _ r o).trans ?_
    refine congrArg₂ (· + ·) (matmul_row (some .fp32) _ _ 0 o) ?_
    rw [shapeCast_self]

end Cert.KernelIdeal.Payload

end
-- ==== Proof.Spec.lean ====
/-
  The function both programs compute, index by index, on the extended reals.

  For x : [8, 16384, 128] and α, β, bias : [128, 128],

    out (b, n, o) = Σ_i x(b,n,i)·α(i,o)  +  Σ_i colSum(b,i)·β(i,o)  +  Σ_i bias(i,o),
    colSum (b, i) = Σ_n x(b,n,i).

  The kernel forms colSum(b, ·) by adding, chunk after chunk, the sums of 2048 consecutive rows; for one column
  r of 16384 entries `partialSum r k` is that running total after k chunks, a sum over the first 2048·k entries,
  and `partialSum_succ` / `partialSum_eight` say that one more chunk extends it by the chunk's own sum and that
  eight chunks exhaust the column. Only
  commutativity and associativity of addition are used, so nothing here asks the entries to be finite.
-/
import Mathlib.Algebra.BigOperators.Fin
import Idealize.ShloMosaic.PureOps.Ideal
import Idealize.ShloMosaic.Lib.ValueIdx

noncomputable section

namespace Cert.Spec

open Idealize.ShloMosaic Idealize.ShloMosaic.ValueIdx

/-- The shape of x and of the result. -/
abbrev SX : Shape := ⟨3, ![8, 16384, 128]⟩
/-- The shape of α, β and bias. -/
abbrev SW : Shape := ⟨2, ![128, 128]⟩

variable (x : SX.Idx → EReal) (α β bias : SW.Idx → EReal)

/-- The sum of channel `i` of batch `b` over all 16384 rows. -/
def colSum (b : Fin 8) (i : Fin 128) : EReal := ∑ n : Fin 16384, x (ix3 b n i)

/-- The sum of column `o` of the bias table. -/
def biasSum (o : Fin 128) : EReal := ∑ i : Fin 128, bias (ix2 i o)

/-- The result at batch `b`, row `n`, output channel `o`. -/
def outAt (b : Fin 8) (n : Fin 16384) (o : Fin 128) : EReal :=
  (∑ i : Fin 128, x (ix3 b n i) * α (ix2 i o)) + (∑ i : Fin 128, colSum x b i * β (ix2 i o)) + biasSum bias o

/-- The result as one array. -/
def out : SX.Idx → EReal := fun j =>
  outAt x α β bias ⟨(j 0).val, (j 0).isLt⟩ ⟨(j 1).val, (j 1).isLt⟩ ⟨(j 2).val, (j 2).isLt⟩

theorem out_ix3 (b : Fin 8) (n : Fin 16384) (o : Fin 128) : out x α β bias (ix3 b n o) = outAt x α β bias b n o := rfl

/-! ## The row sum taken chunk by chunk -/

section Chunks

variable (r : Fin 16384 → EReal)

/-- Entry `n` of a column of 16384 entries, for a natural number `n`; zero past the last entry. -/
def rowAt (n : ℕ) : EReal := if h : n < 16384 then r ⟨n, h⟩ else 0

/-- The running total after `k` chunks of 2048 entries: the sum over the first 2048·k entries. -/
def partialSum (k : ℕ) : EReal := ∑ n ∈ Finset.range (2048 * k), rowAt r n

theorem partialSum_zero : partialSum r 0 = 0 := by
  unfold partialSum; rw [Nat.mul_zero, Finset.range_zero, Finset.sum_empty]

/-- One more chunk adds the sum of that chunk's 2048 entries. -/
theorem partialSum_succ (k : ℕ) (hk : k < 8) :
    partialSum r (k + 1) = partialSum r k + ∑ q : Fin 2048, r ⟨2048 * k + q.val, by omega⟩ := by
  unfold partialSum
  rw [Nat.mul_succ, Finset.sum_range_add]
  refine congrArg (_ + ·) ?_
  rw [← Fin.sum_univ_eq_sum_range (fun q => rowAt r (2048 * k + q)) 2048]
  refine Finset.sum_congr rfl fun q _ => ?_
  unfold rowAt
  rw [dif_pos (by omega)]

/-- Eight chunks are all the entries. -/
theorem partialSum_eight : partialSum r 8 = ∑ n : Fin 16384, r n := by
  unfold partialSum
  rw [show 2048 * 8 = 16384 from rfl, ← Fin.sum_univ_eq_sum_range (fun n => rowAt r n) 16384]
  refine Finset.sum_congr rfl fun n _ => ?_
  unfold rowAt
  rw [dif_pos n.isLt]

end Chunks

end Cert.Spec

end
-- ==== Proof.BlockValue.lean ====
/-
  One grid point's output block as a function of the blocks it stages, on the extended reals.

  With x0 the point's [1, 16384, 128] block of x, a and b the tables α and β, and s the bias row, the block the
  body leaves is, at row n and output channel o,
      Σ_i x0(n,i)·a(i,o)  +  ( Σ_i (Σ_n' x0(n',i))·b(i,o)  +  s(o) ).
  Two facts give it. The running row sum after k chunks is the sum of the first 2048·k rows (induction on k: a
  chunk's store adds the chunk's own column sum), so after the eighth chunk it is the column sum over all rows.
  And every store into the output block is a chunk of 2048 rows of that one function, the chunks covering the
  block, so the block reads back as the function.
-/
import proofs.«118923_j9560597201465_2_alg».proof.Proof.Pieces
import proofs.«118923_j9560597201465_2_alg».proof.Proof.Payload
import proofs.«118923_j9560597201465_2_alg».proof.Proof.Spec

set_option maxRecDepth 65536

noncomputable section

namespace Cert.KernelIdeal.BlockValue

open Cert.KernelIdeal Cert.KernelIdeal.Gen Cert.KernelIdeal.Pieces Cert.KernelIdeal.Payload
open Idealize.ShloMosaic Idealize.ShloMosaic.ValueIdx Idealize.ShloMosaic.TcCoe Idealize.SL.Sem

theorem trips1 : k0_t1_loop.trips = 8 := by decide
theorem trips2 : k0_t2_loop.trips = 8 := by decide

/-- A trip of either loop is one of eight. -/
theorem trip1_lt (k : Fin k0_t1_loop.trips) : k.val < 8 := Nat.lt_of_lt_of_le k.isLt (Nat.le_of_eq trips1)
theorem trip2_lt (k : Fin k0_t2_loop.trips) : k.val < 8 := Nat.lt_of_lt_of_le k.isLt (Nat.le_of_eq trips2)

/-- Row `r` of chunk `k` of the first loop is row 2048·k + r of the block. -/
theorem chunk1_idx (k : Fin k0_t1_loop.trips) (u : Fin 1) (r : Fin 2048) (i : Fin 128) :
    (Rect.unit (s := S1x16384x128) (k0_off1 k) S1x2048x128.size (k0_off1_inb k)).idx (ix3 u r i)
      = ix3 (0 : Fin 1) (⟨2048 * k.val + r.val, by have := trip1_lt k; omega⟩ : Fin 16384) i := by
  have hu : u.val = 0 := by omega
  funext a; apply Fin.ext
  match a with
  | ⟨0, _⟩ => show k0_off1 k 0 + 1 * u.val = 0; rw [k0_off1_eq, hu]; rfl
  | ⟨1, _⟩ => show k0_off1 k 1 + 1 * r.val = 2048 * k.val + r.val; rw [k0_off1_eq]; show 2048 * k.val + 1 * r.val = _; omega
  | ⟨2, _⟩ => show k0_off1 k 2 + 1 * i.val = i.val; rw [k0_off1_eq]; show 0 + 1 * i.val = _; omega

/-- Row `r` of chunk `k` of the second loop is row 2048·k + r of the block. -/
theorem chunk2_idx (k : Fin k0_t2_loop.trips) (u : Fin 1) (r : Fin 2048) (i : Fin 128) :
    (Rect.unit (s := S1x16384x128) (k0_off2 k) S1x2048x128.size (k0_off2_inb k)).idx (ix3 u r i)
      = ix3 (0 : Fin 1) (⟨2048 * k.val + r.val, by have := trip2_lt k; omega⟩ : Fin 16384) i := by
  have hu : u.val = 0 := by omega
  funext a; apply Fin.ext
  match a with
  | ⟨0, _⟩ => show k0_off2 k 0 + 1 * u.val = 0; rw [k0_off2_eq, hu]; rfl
  | ⟨1, _⟩ => show k0_off2 k 1 + 1 * r.val = 2048 * k.val + r.val; rw [k0_off2_eq]; show 2048 * k.val + 1 * r.val = _; omega
  | ⟨2, _⟩ => show k0_off2 k 2 + 1 * i.val = i.val; rw [k0_off2_eq]; show 0 + 1 * i.val = _; omega

/-! ## The running row sum is the partial column sum -/

/-- After `k` chunks the running row sum at channel `i` is the sum of channel `i` over the first 2048·k rows. -/
theorem rowSum_apply (x0 : Vec Ideal S1x16384x128 .f32) (u : Fin 1) (i : Fin 128) :
    ∀ k : ℕ, k ≤ k0_t1_loop.trips →
      rowSum x0 k (ix2 u i) = Cert.Spec.partialSum (fun n : Fin 16384 => x0 (ix3 (0 : Fin 1) n i)) k
  | 0, _ => by
    rw [Cert.Spec.partialSum_zero]
    exact pay1_apply _
  | k + 1, hk => by
    have hk' : k < k0_t1_loop.trips := hk
    have e := rowSum_succ x0 ⟨k, hk'⟩
    simp only [Fin.val_mk] at e
    rw [e, pay2_apply, rowSum_apply x0 u i k (Nat.le_of_lt hk'),
      Cert.Spec.partialSum_succ _ k (trip1_lt ⟨k, hk'⟩)]
    refine congrArg (_ + ·) (Finset.sum_congr rfl fun r _ => ?_)
    show x0 ((Rect.unit (s := S1x16384x128) (k0_off1 ⟨k, hk'⟩) S1x2048x128.size (k0_off1_inb ⟨k, hk'⟩)).idx (ix3 (0 : Fin 1) r i)) = _
    rw [chunk1_idx]

/-- After all the chunks it is the column sum over every row. -/
theorem rowSum_final (x0 : Vec Ideal S1x16384x128 .f32) (u : Fin 1) (i : Fin 128) :
    rowSum x0 k0_t1_loop.trips (ix2 u i) = ∑ n : Fin 16384, x0 (ix3 (0 : Fin 1) n i) := by
  rw [rowSum_apply x0 u i _ (Nat.le_refl _), trips1, Cert.Spec.partialSum_eight]

/-! ## The output block -/

/-- The output block's entry at row `n`, output channel `o`. -/
def blockOut (x0 : Vec Ideal S1x16384x128 .f32) (x1 x2 : Vec Ideal S128x128 .f32) (x3 : Vec Ideal S1x128 .f32)
    (n : Fin 16384) (o : Fin 128) : EReal :=
  (∑ i : Fin 128, x0 (ix3 (0 : Fin 1) n i) * x1 (ix2 i o))
    + ((∑ i : Fin 128, (∑ n' : Fin 16384, x0 (ix3 (0 : Fin 1) n' i)) * x2 (ix2 i o)) + x3 (ix2 (0 : Fin 1) o))

/-- The output block as one array. -/
def blockOutArr (x0 : Vec Ideal S1x16384x128 .f32) (x1 x2 : Vec Ideal S128x128 .f32) (x3 : Vec Ideal S1x128 .f32) :
    S1x16384x128.Idx → Elt Ideal .f32 :=
  fun y => blockOut x0 x1 x2 x3 ⟨(y 1).val, (y 1).isLt⟩ ⟨(y 2).val, (y 2).isLt⟩

variable (c : Dev nD) (i : grid0.Coords) (arg1 : Memref sig .tc .vmem S1x16384x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x16384x128 .f32) (harg5 : arg5.IsWhole) (arg6 : Memref sig .tc .vmem S1x128 .f32) (harg6 : arg6.IsWhole)

/-- What the body leaves in its output block is `blockOutArr` of the blocks it staged. -/
theorem out_block (x0 : Vec Ideal S1x16384x128 .f32) (x1 x2 : Vec Ideal S128x128 .f32) (x3 : Vec Ideal S1x128 .f32) :
    out0_A_4 (F := Ideal) c i arg1 harg1 arg2 harg2 arg3 harg3 arg4 harg4 arg5 harg5 arg6 harg6 x0 x1 x2 x3 = blockOutArr x0 x1 x2 x3 := by
  funext y
  unfold out0_A_4
  rw [View.read_writes_eq_canon _ _ _ (cover0_A_4 c i arg1 harg1 arg2 harg2 arg3 harg3 arg4 harg4 arg5 harg5 arg6 harg6 x0 x1 x2 x3)]
  refine View.canon_apply_of_pieces (blockOutArr x0 x1 x2 x3) _ ?_ y (cover0_A_4 c i arg1 harg1 arg2 harg2 arg3 harg3 arg4 harg4 arg5 harg5 arg6 harg6 x0 x1 x2 x3 y)
  intro p hp xl
  obtain ⟨k, rfl⟩ := run_pieces_mem c i arg1 harg1 arg2 harg2 arg3 harg3 arg4 harg4 arg5 harg5 arg6 harg6 x0 x1 x2 x3 p hp
  obtain ⟨u, r, o, rfl⟩ : ∃ (u : Fin 1) (r : Fin 2048) (o : Fin 128), xl = ix3 u r o := ⟨xl 0, xl 1, xl 2, eq_ix3 xl⟩
  have hidx : ∀ (u' : Fin 1) (c' : Fin 128), (Rect.unit (s := S1x16384x128) (k0_off2 k) S1x2048x128.size (k0_off2_inb k)).idx (ix3 u' r c')
      = ix3 (0 : Fin 1) (⟨2048 * k.val + r.val, by have := trip2_lt k; omega⟩ : Fin 16384) c' :=
    fun u' c' => chunk2_idx k u' r c'
  show k0_pay3 (F := Ideal) (rowSum x0 k0_t1_loop.trips) x2 x3 x1 (View.ld x0 (Rect.unit (s := S1x16384x128) (k0_off2 k) S1x2048x128.size (k0_off2_inb k))) (ix3 u r o)
    = blockOutArr x0 x1 x2 x3 ((Rect.unit (s := S1x16384x128) (k0_off2 k) S1x2048x128.size (k0_off2_inb k)).idx (ix3 u r o))
  rw [pay3_apply, hidx u o]
  show _ = blockOut x0 x1 x2 x3 ⟨2048 * k.val + r.val, _⟩ o
  unfold blockOut
  refine congrArg₂ (· + ·) (Finset.sum_congr rfl fun i _ => ?_)
    (congrArg₂ (· + ·) (Finset.sum_congr rfl fun i _ => ?_) rfl)
  · show x0 ((Rect.unit (s := S1x16384x128) (k0_off2 k) S1x2048x128.size (k0_off2_inb k)).idx (ix3 (0 : Fin 1) r i)) * _ = _
    rw [hidx]
  · rw [rowSum_final]

end Cert.KernelIdeal.BlockValue

end
-- ==== Proof.KernelValue.lean ====
/-
  The kernel's result array is the specification of its argument arrays.

  The grid has one point per batch b. Point b stages block b of x (all 16384 rows of batch b), the whole of α and of
  β, and the bias row — the host's column sums of the bias table, Σ_i bias(i,o) — and writes back block b of the
  result. By the block-level value its block is
      Σ_i x(b,n,i)·α(i,o)  +  ( Σ_i (Σ_n' x(b,n',i))·β(i,o)  +  Σ_i bias(i,o) ),
  which is the specification's  (A + B) + C  re-bracketed as  A + (B + C): associativity of addition on the
  extended reals, with no finiteness asked. The eight blocks tile the result array, so the array is the
  specification everywhere.
-/
import proofs.«118923_j9560597201465_2_alg».proof.Proof.Gen.KernelIdeal.Value
import proofs.«118923_j9560597201465_2_alg».proof.Proof.BlockValue
import Idealize.ShloMosaic.Lib.StableHlo.Run

set_option maxRecDepth 65536

noncomputable section

namespace Cert.KernelIdeal.KValue

open Cert.KernelIdeal Cert.KernelIdeal.Gen Cert.KernelIdeal.Value Cert.KernelIdeal.BlockValue
open Idealize.ShloMosaic Idealize.ShloMosaic.ValueIdx Idealize.ShloMosaic.TcCoe Idealize.SL.Sem
open Idealize.ShloMosaic.Pipeline (Dat)

/-! ## One block against the specification -/

/-- A block of the result whose staged blocks are block `b` of x, the tables α and β, and the bias table's column
    sums is block `b` of the specification: `A + (B + C) = (A + B) + C`. -/
theorem block_eq_spec (X : Cert.Spec.SX.Idx → EReal) (A B Bias : Cert.Spec.SW.Idx → EReal)
    (x0 : Vec Ideal S1x16384x128 .f32) (x1 x2 : Vec Ideal S128x128 .f32) (x3 : Vec Ideal S1x128 .f32) (b : Fin 8)
    (h0 : ∀ (n : Fin 16384) (i : Fin 128), x0 (ix3 (0 : Fin 1) n i) = X (ix3 b n i))
    (h1 : ∀ i o : Fin 128, x1 (ix2 i o) = A (ix2 i o))
    (h2 : ∀ i o : Fin 128, x2 (ix2 i o) = B (ix2 i o))
    (h3 : ∀ o : Fin 128, x3 (ix2 (0 : Fin 1) o) = ∑ i : Fin 128, Bias (ix2 i o))
    (n : Fin 16384) (o : Fin 128) :
    blockOut x0 x1 x2 x3 n o = Cert.Spec.outAt X A B Bias b n o := by
  unfold blockOut Cert.Spec.outAt Cert.Spec.colSum Cert.Spec.biasSum
  simp only [h0, h1, h2, h3]
  exact (add_assoc _ _ _).symm

/-! ## The bias row the region finds -/

/-- The host's sum of the bias table over its rows, kept as a one-row array, at column `o`. -/
theorem biasrow_apply (x3 : S128x128.Idx → EReal) (u : Fin 1) (o : Fin 128) :
    broadcastInDim S1x128 ![1] bcast_S128_S1x128_1
        (Host.reduceAdd (F := Ideal) x3 (constant (F := Ideal) S_ .f32 0x00000000#32) reducesTo_S128x128_S128_d0 h_S_) (ix2 u o)
      = ∑ i : Fin 128, x3 (ix2 i o) := by
  refine (broadcastInDim_apply _ bcast_S128_S1x128_1 _ (ix2 u o) (ix1 o) (fun a => match a with
    | ⟨0, _⟩ => by show o.val = if (128 : Nat) = 1 then 0 else o.val; rw [if_neg (by decide)])).trans ?_
  simp only [Host.reduceAdd, Ideal.hostReduceAdd_def]
  rw [Ideal.hostReduceAdd_single reducesTo_S128x128_S128_d0 (by decide)]
  show Ideal.ofBits .f32 0x00000000#32 + _ = _
  rw [Ideal.ofBits_zero_f32, zero_add]
  refine Finset.sum_congr rfl fun k _ => ?_
  exact congrArg x3 (funext fun a => Fin.ext (by match a with | ⟨0, _⟩ => rfl | ⟨1, _⟩ => rfl))

variable (m : (ℓ : Loc nD τ sig) → Buf (Elt Ideal) ℓ) (ρ : Dev nD → PrngReg)

/-- The array the fourth window stages is the host's one-row column sum of the bias table. -/
theorem V_biasrow (c : Dev nD) :
    (V m c main_v1 : S1x128.Idx → EReal) = broadcastInDim S1x128 ![1] bcast_S128_S1x128_1
      (Host.reduceAdd (F := Ideal) (m ((c : Thread nD τ).loc main_arg3)) (constant (F := Ideal) S_ .f32 0x00000000#32) reducesTo_S128x128_S128_d0 h_S_) := by
  dsimp only [Gen.V, Gen.hostOps0]
  after_results

/-! ## Blocks to the array -/

/-- The printed index maps over the grid: point `t` stages block `t` of x and writes block `t` of the result; the
    other windows stay at their one block. -/
theorem idx_facts : ∀ t : Fin cfg0.N,
    win0_4.index t (0 : Fin 3) = t.val ∧ win0_4.index t (1 : Fin 3) = 0 ∧ win0_4.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What point `t` writes back is block `t` of the specification of the argument arrays. -/
theorem flushed_eq (c : Dev nD) (t : Fin cfg0.N) :
    (dats m 0 c).flushed 4 t = ((cfg0.win 4).blk t).view.read (Elt Ideal)
      (Cert.Spec.out (m ((c : Thread nD τ).loc main_arg0)) (m ((c : Thread nD τ).loc main_arg1)) (m ((c : Thread nD τ).loc main_arg2)) (m ((c : Thread nD τ).loc main_arg3))) := by
  rw [flushed4_A, out_block]
  obtain ⟨e40, e41, e42, e00, e01, e02, e10, e11, e20, e21, e30, e31⟩ := idx_facts t
  have hb : t.val < 8 := Nat.lt_of_lt_of_le t.isLt (Nat.le_of_eq N_0)
  funext y
  have hy0 : (y 0).val < 1 := (y 0).isLt
  have hemb : ((cfg0.win 4).blk t).view.emb y
      = ix3 (⟨t.val, hb⟩ : Fin 8) (⟨(y 1).val, (y 1).isLt⟩ : Fin 16384) (⟨(y 2).val, (y 2).isLt⟩ : Fin 128) := by
    funext a; apply Fin.ext
    match a with
    | ⟨0, _⟩ => show win0_4.index t (0 : Fin 3) * 1 + 1 * (y 0).val = t.val; omega
    | ⟨1, _⟩ => show win0_4.index t (1 : Fin 3) * 16384 + 1 * (y 1).val = (y 1).val; omega
    | ⟨2, _⟩ => show win0_4.index t (2 : Fin 3) * 128 + 1 * (y 2).val = (y 2).val; omega
  show blockOut (iblk m c 0 t) (iblk m c 1 t) (iblk m c 2 t) (iblk m c 3 t) ⟨(y 1).val, (y 1).isLt⟩ ⟨(y 2).val, (y 2).isLt⟩
    = Cert.Spec.out (m ((c : Thread nD τ).loc main_arg0)) (m ((c : Thread nD τ).loc main_arg1)) (m ((c : Thread nD τ).loc main_arg2)) (m ((c : Thread nD τ).loc main_arg3)) (((cfg0.win 4).blk t).view.emb y)
  rw [hemb, Cert.Spec.out_ix3]
  refine block_eq_spec (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) ⟨t.val, hb⟩ ?_ ?_ ?_ ?_ _ _
  · intro n i
    show V m c main_arg0 (((cfg0.win 0).blk t).view.emb (ix3 (0 : Fin 1) n i)) = _
    rw [V_main_arg0]
    refine congrArg (m ((c : Thread nD τ).loc main_arg0)) ?_
    funext a; apply Fin.ext
    match a with
    | ⟨0, _⟩ => show win0_0.index t (0 : Fin 3) * 1 + 1 * 0 = t.val; omega
    | ⟨1, _⟩ => show win0_0.index t (1 : Fin 3) * 16384 + 1 * n.val = n.val; omega
    | ⟨2, _⟩ => show win0_0.index t (2 : Fin 3) * 128 + 1 * i.val = i.val; omega
  · intro i o
    show V m c main_arg1 (((cfg0.win 1).blk t).view.emb (ix2 i o)) = _
    rw [V_main_arg1]
    refine congrArg (m ((c : Thread nD τ).loc main_arg1)) ?_
    funext a; apply Fin.ext
    match a with
    | ⟨0, _⟩ => show win0_1.index t (0 : Fin 2) * 128 + 1 * i.val = i.val; omega
    | ⟨1, _⟩ => show win0_1.index t (1 : Fin 2) * 128 + 1 * o.val = o.val; omega
  · intro i o
    show V m c main_arg2 (((cfg0.win 2).blk t).view.emb (ix2 i o)) = _
    rw [V_main_arg2]
    refine congrArg (m ((c : Thread nD τ).loc main_arg2)) ?_
    funext a; apply Fin.ext
    match a with
    | ⟨0, _⟩ => show win0_2.index t (0 : Fin 2) * 128 + 1 * i.val = i.val; omega
    | ⟨1, _⟩ => show win0_2.index t (1 : Fin 2) * 128 + 1 * o.val = o.val; omega
  · intro o
    show (V m c main_v1 : S1x128.Idx → EReal) (((cfg0.win 3).blk t).view.emb (ix2 (0 : Fin 1) o)) = _
    have he : ((cfg0.win 3).blk t).view.emb (ix2 (0 : Fin 1) o) = ix2 (0 : Fin 1) o := by
      funext a; apply Fin.ext
      match a with
      | ⟨0, _⟩ => show win0_3.index t (0 : Fin 2) * 1 + 1 * 0 = 0; omega
      | ⟨1, _⟩ => show win0_3.index t (1 : Fin 2) * 128 + 1 * o.val = o.val; omega
    rw [he, V_biasrow]
    exact biasrow_apply _ 0 o

/-- An index of the result array is in point `t`'s block iff each coordinate is in the block's range on its axis. -/
theorem mem_blk (t : Fin cfg0.N) (i : S8x16384x128.Idx) :
    i ∈ ((cfg0.win 4).blk t).view.set ↔ ∀ a : Fin 3, win0_4.index t a * S1x16384x128.size a ≤ (i a).val
      ∧ (i a).val < win0_4.index t a * S1x16384x128.size a + S1x16384x128.size a := by
  show i ∈ ((View.whole main_v2).slice (win0_4.rect t)).set ↔ _
  rw [View.set_slice_whole, Rect.mem_set_unit]
  exact Iff.rfl

/-- Every index of the result array is in the block of the point its batch coordinate names. -/
theorem cover (i : S8x16384x128.Idx) :
    ∃ t : Fin cfg0.N, (cfg0.win 4).flush t = true ∧ i ∈ ((cfg0.win 4).blk t).view.set := by
  have hi0 : (i 0).val < 8 := (i 0).isLt
  have hi1 : (i 1).val < 16384 := (i 1).isLt
  have hi2 : (i 2).val < 128 := (i 2).isLt
  have hN : (i 0).val < cfg0.N := Nat.lt_of_lt_of_le hi0 (Nat.le_of_eq N_0.symm)
  obtain ⟨e40, e41, e42, -⟩ := idx_facts ⟨(i 0).val, hN⟩
  have e40' : win0_4.index ⟨(i 0).val, hN⟩ (0 : Fin 3) = (i 0).val := e40
  refine ⟨⟨(i 0).val, hN⟩, flush0_4 _, ?_⟩
  rw [mem_blk]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    omega
  | ⟨1, _⟩ =>
    show win0_4.index ⟨(i 0).val, hN⟩ (1 : Fin 3) * 16384 ≤ (i 1).val ∧ (i 1).val < win0_4.index ⟨(i 0).val, hN⟩ (1 : Fin 3) * 16384 + 16384
    omega
  | ⟨2, _⟩ =>
    show win0_4.index ⟨(i 0).val, hN⟩ (2 : Fin 3) * 128 ≤ (i 2).val ∧ (i 2).val < win0_4.index ⟨(i 0).val, hN⟩ (2 : Fin 3) * 128 + 128
    omega

/-- The result array after the run is the specification of the argument arrays. -/
theorem final (c : Dev nD) : (dats m 0 c).arrAt 4 cfg0.N
    = Cert.Spec.out (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- Every weakly fair execution of the idealized kernel ends with its result array at the specification of its
    argument arrays, and those unchanged. -/
theorem run : θ_run defs (onTc (τ := τ) (main (F := Ideal))) ⟨m, fun _ => 0, ρ⟩ fun r => ∀ c : Dev nD,
      r.2.mem ((c : Thread nD τ).loc main_v2)
        = Cert.Spec.out (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.RefValue.lean ====
/-
  The reference's result is the specification.

  Read one operation at a time, the reference's result at (b, n, o) is
      ( Σ_i x(b,n,i)·α(i,o)  +  Σ_i (0 + Σ_n' x(b,n',i))·β(i,o) )  +  (0 + Σ_i bias(i,o)),
  the two zeros being the initial values of its sums: the specification, once they are dropped.
-/
import proofs.«118923_j9560597201465_2_alg».proof.Proof.Gen.ReferenceIdeal.Read
import proofs.«118923_j9560597201465_2_alg».proof.Proof.Spec

noncomputable section

namespace Cert.ReferenceIdeal.RefValue

open Cert.ReferenceIdeal Cert.ReferenceIdeal.Read Idealize.ShloMosaic Idealize.ShloMosaic.ValueIdx

/-- The reference's last stage, as a function of the four arguments, is the specification. -/
theorem result_eq (x : (⟨S8x16384x128, .f32⟩ : BufTy).Contents (Elt Ideal)) (α β bias : (⟨S128x128, .f32⟩ : BufTy).Contents (Elt Ideal)) :
    val_main_v9 (F := Ideal) x α β bias = Cert.Spec.out x α β bias := by
  funext j
  obtain ⟨b, n, o, rfl⟩ : ∃ (b : Fin 8) (n : Fin 16384) (o : Fin 128), j = ix3 b n o := ⟨j 0, j 1, j 2, eq_ix3 j⟩
  have e2 : ∀ k : Fin 128, lidx_main_v2 (ix3 b n o) k = ix3 b n k := fun k =>
    funext fun a => Fin.ext (by match a with | ⟨0, _⟩ => rfl | ⟨1, _⟩ => rfl | ⟨2, _⟩ => rfl)
  have e2r : ∀ k : Fin 128, ridx_main_v2 (ix3 b n o) k = ix2 k o := fun k =>
    funext fun a => Fin.ext (by match a with | ⟨0, _⟩ => rfl | ⟨1, _⟩ => rfl)
  have e3r : ∀ k : Fin 128, ridx_main_v3 (idx_main_v4 (ix3 b n o)) k = ix2 k o := fun k =>
    funext fun a => Fin.ext (by match a with | ⟨0, _⟩ => rfl | ⟨1, _⟩ => rfl)
  have e0 : ∀ (k : Fin 128) (k' : Fin 16384),
      idx_main_v0 (idx_main_v1 (lidx_main_v3 (idx_main_v4 (ix3 b n o)) k)) k' = ix3 b k' k := fun k k' =>
    funext fun a => Fin.ext (by match a with | ⟨0, _⟩ => rfl | ⟨1, _⟩ => rfl | ⟨2, _⟩ => rfl)
  have e6 : ∀ k : Fin 128, idx_main_v6 (idx_main_v7 (idx_main_v8 (ix3 b n o))) k = ix2 k o := fun k =>
    funext fun a => Fin.ext (by match a with | ⟨0, _⟩ => rfl | ⟨1, _⟩ => rfl)
  rw [Cert.Spec.out_ix3, val_main_v9_apply, val_main_v5_apply, val_main_v2_apply, val_main_v4_apply, val_main_v3_apply,
    val_main_v8_apply, val_main_v7_apply, val_main_v6_apply]
  simp only [val_main_v1_apply, val_main_v0_apply, val_main_cst_apply, val_main_cst_0_apply, e2, e2r, e3r, e0, e6,
    Ideal.addf_def, Ideal.ofBits_def, Ideal.ofBits_zero_f32, zero_add]
  rfl

end Cert.ReferenceIdeal.RefValue

end
-- ==== Proof.lean ====
/-
  The kernel and its reference compute one function of (x, α, β, bias) on the extended reals:

      out(b, n, o) = Σ_i x(b,n,i)·α(i,o)  +  Σ_i (Σ_n' x(b,n',i))·β(i,o)  +  Σ_i bias(i,o).

  The reference states it in that form (two contractions, a broadcast, two additions). The kernel takes one batch
  per grid point: it sums the batch's rows chunk by chunk into a running row sum, multiplies that row into β, adds
  the host's column sums of the bias table, and adds the result to each chunk of x·α. On the extended reals the
  roundings to bfloat16 are the identity, a matrix product into a zero accumulator is the plain sum, the chunked
  row sum is the row sum (addition is commutative and associative), and the kernel's bracketing A + (B + C) is the
  reference's (A + B) + C. No step needs an entry to be finite, so the precondition is never opened.

  The three frame claims are the generated frames (the reference's is its generated run with the result dropped);
  the idealization rewrote nothing, so its claim is `True`; the value claim sets the kernel's run
  (Proof/KernelValue.lean) beside the reference's run read at an index (Proof/RefValue.lean), both at the
  specification (Proof/Spec.lean).
-/
import proofs.«118923_j9560597201465_2_alg».proof.Defs
import proofs.«118923_j9560597201465_2_alg».proof.Proof.Gen.Kernel
import proofs.«118923_j9560597201465_2_alg».proof.Proof.Gen.Kernel.Frame
import proofs.«118923_j9560597201465_2_alg».proof.Proof.Gen.KernelIdeal
import proofs.«118923_j9560597201465_2_alg».proof.Proof.Gen.KernelIdeal.Frame
import proofs.«118923_j9560597201465_2_alg».proof.Proof.Gen.ReferenceIdeal
import proofs.«118923_j9560597201465_2_alg».proof.Proof.Gen.ReferenceIdeal.Run
import proofs.«118923_j9560597201465_2_alg».proof.Proof.Gen.Pre_finite_inputs
import proofs.«118923_j9560597201465_2_alg».proof.Proof.KernelValue
import proofs.«118923_j9560597201465_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with their result at the specification of
    those arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
